-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x256 : Shape := ⟨2, ![25000, 256]⟩
abbrev S256x256 : Shape := ⟨2, ![256, 256]⟩
abbrev S256 : Shape := ⟨1, ![256]⟩
abbrev S_ : Shape := ⟨0, ![]⟩

class Facts : Prop where
  bcast_S_S25000x256 : S_.BroadcastsInDim S25000x256 (![] : Fin 0 → Fin S25000x256.rank)
  reducesTo_S25000x256_S_d0_1 : S25000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S25000x256 .f32) (main_arg1 : FVec F S25000x256 .f32) (main_arg2 : FVec F S256x256 .f32) (main_arg3 : FVec F S256 .f32) : IVec S_ 1 :=
  let main_v0 : FVec F S25000x256 .f32 := Host.absf main_arg0
  let main_cst : FVec F S_ .f32 := constant S_ .f32 0x7F800000#32
  let main_v1 : FVec F S25000x256 .f32 := broadcastInDim S25000x256 ![] bcast_S_S25000x256 main_cst
  let main_v2 : IVec S25000x256 1 := cmpf .olt main_v0 main_v1
  let main_c : IVec S_ 1 := constantI S_ 1 1#1
  let main_v3 : IVec S_ 1 := (fun x v => Host.reduce IntOp.andi x v reducesTo_S25000x256_S_d0_1 h_S_) main_v2 main_c
  let main_v4 : FVec F S25000x256 .f32 := Host.absf main_arg1
  let main_cst_0 : FVec F S_ .f32 := constant S_ .f32 0x7F800000#32
  let main_v5 : FVec F S25000x256 .f32 := broadcastInDim S25000x256 ![] bcast_S_S25000x256 main_cst_0
  let main_v6 : IVec S25000x256 1 := cmpf .olt main_v4 main_v5
  let main_c_1 : IVec S_ 1 := constantI S_ 1 1#1
  let main_v7 : IVec S_ 1 := (fun x v => Host.reduce IntOp.andi x v reducesTo_S25000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S25000x256 : Shape := ⟨2, ![25000, 256]⟩
abbrev S256x256 : Shape := ⟨2, ![256, 256]⟩
abbrev S256 : Shape := ⟨1, ![256]⟩
abbrev S1x256 : Shape := ⟨2, ![1, 256]⟩
abbrev S2x25000x256 : Shape := ⟨3, ![2, 25000, 256]⟩
abbrev S6256x256 : Shape := ⟨2, ![6256, 256]⟩
abbrev S2x6256x256 : Shape := ⟨3, ![2, 6256, 256]⟩
abbrev S1x6256x256 : Shape := ⟨3, ![1, 6256, 256]⟩
abbrev S50000x256 : Shape := ⟨2, ![50000, 256]⟩

abbrev nBuf : Space → Nat
  | .hbm => 7
  | .vmem => 8
  | .smem => 0
  | _ => 0

abbrev bufTy : (tb : Table) → Fin (tcTables nBuf tb) → BufTy
  | .hbm, ⟨0, _⟩ => ⟨S25000x256, .f32⟩
  | .hbm, ⟨1, _⟩ => ⟨S25000x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S2x25000x256, .f32⟩
  | .hbm, ⟨6, _⟩ => ⟨S50000x256, .f32⟩
  | .local _ .vmem, ⟨0, _⟩ => ⟨S6256x256, .f32⟩
  | .local _ .vmem, ⟨1, _⟩ => ⟨S6256x256, .f32⟩
  | .local _ .vmem, ⟨2, _⟩ => ⟨S6256x256, .f32⟩
  | .local _ .vmem, ⟨3, _⟩ => ⟨S6256x256, .f32⟩
  | .local _ .vmem, ⟨4, _⟩ => ⟨S256x256, .f32⟩
  | .local _ .vmem, ⟨5, _⟩ => ⟨S1x256, .f32⟩
  | .local _ .vmem, ⟨6, _⟩ => ⟨S2x6256x256, .f32⟩
  | .local _ .vmem, ⟨7, _⟩ => ⟨S2x6256x256, .f32⟩
  | _, _ => ⟨S25000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S6256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x6256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S6256x256_S6256x256_0_0 : ∀ a, (![0, 0] : Fin 2 → Nat) a + S6256x256.size a ≤ S6256x256.size a
  h_S6256x256 : 0 < S6256x256.numel
  broadcasts_S1x256_S6256x256 : S1x256.Broadcasts S6256x256
  inb_S2x6256x256_S1x6256x256_0_0_0 : ∀ a, (![0, 0, 0] : Fin 3 → Nat) a + S1x6256x256.size a ≤ S2x6256x256.size a
  h_S1x6256x256 : 0 < S1x6256x256.numel
  shapeCasts_S1x6256x256_S6256x256 : S1x6256x256.ShapeCasts S6256x256
  shapeCasts_S6256x256_S1x6256x256 : S6256x256.ShapeCasts S1x6256x256
  inb_S2x6256x256_S1x6256x256_1_0_0 : ∀ a, (![1, 0, 0] : Fin 3 → Nat) a + S1x6256x256.size a ≤ S2x6256x256.size a
  shapeCasts_S2x25000x256_S50000x256 : S2x25000x256.ShapeCasts S50000x256
  dot_S6256x256_S256x256_S6256x256_1_0_0_1_n_n_wf : DotDims.WF S6256x256 S256x256 S6256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6256x256.size a < S25000x256.size a
  hwx0_0 : ∀ i : grid0.Coords, EltTy.bits .f32 = 32 ∨ (Rect.unit (s := S25000x256) (fun a => cc0_transform_0 i a * S6256x256.size a) (fun a => (Pipeline.Clip.of (cc0_transform_0 i a) (S6256x256.size a) (S25000x256.size a)).extent (S6256x256.size a)) fun a => Pipeline.Clip.inb (Pipeline.Clip.ok_of (hstart0_0 i a))).WholeWords (EltTy.packing .f32)
  hwxs0_0 : ∀ i : grid0.Coords, EltTy.bits .f32 = 32 ∨ (Rect.unit (s := S6256x256) (fun _ => 0) (fun a => (Pipeline.Clip.of (cc0_transform_0 i a) (S6256x256.size a) (S25000x256.size a)).extent (S6256x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6256x256.size a < S25000x256.size a
  hwx0_1 : ∀ i : grid0.Coords, EltTy.bits .f32 = 32 ∨ (Rect.unit (s := S25000x256) (fun a => cc0_transform_1 i a * S6256x256.size a) (fun a => (Pipeline.Clip.of (cc0_transform_1 i a) (S6256x256.size a) (S25000x256.size a)).extent (S6256x256.size a)) fun a => Pipeline.Clip.inb (Pipeline.Clip.ok_of (hstart0_1 i a))).WholeWords (EltTy.packing .f32)
  hwxs0_1 : ∀ i : grid0.Coords, EltTy.bits .f32 = 32 ∨ (Rect.unit (s := S6256x256) (fun _ => 0) (fun a => (Pipeline.Clip.of (cc0_transform_1 i a) (S6256x256.size a) (S25000x256.size a)).extent (S6256x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2x6256x256.size a < S2x25000x256.size a
  hwx0_4 : ∀ i : grid0.Coords, EltTy.bits .f32 = 32 ∨ (Rect.unit (s := S2x25000x256) (fun a => cc0_transform_4 i a * S2x6256x256.size a) (fun a => (Pipeline.Clip.of (cc0_transform_4 i a) (S2x6256x256.size a) (S2x25000x256.size a)).extent (S2x6256x256.size a)) fun a => Pipeline.Clip.inb (Pipeline.Clip.ok_of (hstart0_4 i a))).WholeWords (EltTy.packing .f32)
  hwxs0_4 : ∀ i : grid0.Coords, EltTy.bits .f32 = 32 ∨ (Rect.unit (s := S2x6256x256) (fun _ => 0) (fun a => (Pipeline.Clip.of (cc0_transform_4 i a) (S2x6256x256.size a) (S2x25000x256.size a)).extent (S2x6256x256.size a)) fun a => (Nat.zero_add _).trans_le (Pipeline.Clip.extent_le (Pipeline.Clip.ok_of (hstart0_4 i a)))).WholeWords (EltTy.packing .f32)

variable [Facts₀]

def dot_S6256x256_S256x256_S6256x256_1_0_0_1_n_n : DotDims S6256x256 S256x256 S6256x256 where
  lhsContracting := [1]
  rhsContracting := [0]
  lhsNonContracting := [0]
  rhsNonContracting := [1]
  lhsBatch := []
  rhsBatch := []
  wf := dot_S6256x256_S256x256_S6256x256_1_0_0_1_n_n_wf

abbrev win0_0 : Pipeline.Window sig grid0 :=
  Pipeline.Window.ofSpecClip (Memref.whole main_arg0) S6256x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S6256x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S2x6256x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S25000x256 : Shape := ⟨2, ![25000, 256]⟩
abbrev S256x256 : Shape := ⟨2, ![256, 256]⟩
abbrev S256 : Shape := ⟨1, ![256]⟩
abbrev S50000x256 : Shape := ⟨2, ![50000, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S25000x256, .f32⟩
  | .hbm, ⟨1, _⟩ => ⟨S25000x256, .f32⟩
  | .hbm, ⟨2, _⟩ => ⟨S256x256, .f32⟩
  | .hbm, ⟨3, _⟩ => ⟨S256, .f32⟩
  | .hbm, ⟨4, _⟩ => ⟨S50000x256, .f32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | _, _ => ⟨S25000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  concatenates_S25000x256_S25000x256_S50000x256_d0 : Shape.Concatenates [S25000x256, S25000x256] S50000x256 0
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelFrame.lean ====
/-
  The word-level kernel runs to the end, faults nowhere and leaves its four argument arrays unchanged.

  A grid point handles one block of 6256 rows of each input. The body loads the 256 x 256 weight matrix, the bias row and
  the first input's rows block, multiplies the rows into the weights (into a zero accumulator), adds the bias row
  broadcast over the rows, and stores the result as plane 0 of the [2, 6256, 256] output block; then does the same with
  the second input's rows block into plane 1.
-/
import proofs.«169659_g17257178595387_cont_8to1_146_7_alg».proof.Proof.Gen.Kernel.Frame
import proofs.«169659_g17257178595387_cont_8to1_146_7_alg».proof.Proof.Gen.Kernel.Skeleton
import Idealize.ShloMosaic.Lib.Pipeline.FrameBody
import Idealize.ShloMosaic.Lib.Tactic

set_option maxRecDepth 16384

noncomputable section

namespace Cert.Kernel.ProjBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

/-- A whole 6256 x 256 block of rows. -/
abbrev rRows : Rect S6256x256 := Rect.unit (s := S6256x256) ![0, 0] S6256x256.size inb_S6256x256_S6256x256_0_0
/-- The whole weight matrix. -/
abbrev rW : Rect S256x256 := Rect.unit (s := S256x256) ![0, 0] S256x256.size inb_S256x256_S256x256_0_0
/-- The whole bias row. -/
abbrev rB : Rect S1x256 := Rect.unit (s := S1x256) ![0, 0] S1x256.size inb_S1x256_S1x256_0_0
/-- Plane 0 of the output block: the projected rows of the first input. -/
abbrev rOut0 : Rect S2x6256x256 := Rect.unit (s := S2x6256x256) ![0, 0, 0] S1x6256x256.size inb_S2x6256x256_S1x6256x256_0_0_0
/-- Plane 1 of the output block: the projected rows of the second input. -/
abbrev rOut1 : Rect S2x6256x256 := Rect.unit (s := S2x6256x256) ![1, 0, 0] S1x6256x256.size inb_S2x6256x256_S1x6256x256_1_0_0

/-- What the output block holds after the body, from what the four input blocks hold: plane 0 written with the
    projection of the first rows block, then plane 1 with that of the second (the later store listed first). -/
def outBlock (x1 x2 : Vec F S6256x256 .f32) (x3 : Vec F S256x256 .f32) (x4 : Vec F S1x256 .f32) : Vec F S2x6256x256 .f32 :=
  View.canon [⟨rOut1, k0_pay3 (View.ld x3 rW) (View.ld x4 rB) (View.ld x2 rRows)⟩,
    ⟨rOut0, k0_pay2 (View.ld x3 rW) (View.ld x4 rB) (View.ld x1 rRows)⟩]

/-- The two planes tile the output block. -/
theorem outBlock_cover (p1 p0 : Vec F S1x6256x256 .f32) (y : S2x6256x256.Idx) :
    ∃ pc ∈ ([⟨rOut1, p1⟩, ⟨rOut0, p0⟩] : List (View.Piece (Elt F) S2x6256x256 .f32)), y ∈ pc.1.set :=
  View.cover_of_tiled [⟨rOut1, p1⟩, ⟨rOut0, p0⟩] S1x6256x256.size (by rfl) y

/-! ## The body's triple -/

set_option maxHeartbeats 1000000 in
/-- The body on whole staging memrefs, the four inputs' at contents `x1 … x4` and the output's at anything, runs to
    the continuation with the inputs' as they were and the output's at `outBlock` of them. -/
theorem sound_kernel (c : Dev nD) (E : Set ℕ) (i : grid0.Coords)
    (arg1 : Memref sig .tc .vmem S6256x256 .f32) (harg1 : arg1.IsWhole) (arg2 : Memref sig .tc .vmem S6256x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2x6256x256 .f32) (harg5 : arg5.IsWhole)
    (x1 x2 : Vec F S6256x256 .f32) (x3 : Vec F S256x256 .f32) (x4 : Vec F S1x256 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (outBlock x1 x2 x3 x4)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _ _)

/-! ## The proof data of the pipeline

The last rows block of each input overhangs its array by 24 rows: the fetch fills the staging buffer's leading
part and the rest holds words nothing names. The body's result on the rows inside the array depends, through the
matrix product, on the whole rows block it is handed, so what the output's staging buffer holds after the body is
not a function of the point alone. The frame does not read the output array: its window is forgotten, handed to
the body at some contents and taken back at some contents. -/

/-- The windows whose contents are stated nowhere: the output's (window 4) only. -/
def forgets0 : Fin 5 → Bool := fun | 0 => false | 1 => false | 2 => false | 3 => false | 4 => true | ⟨_ + 5, h⟩ => absurd h (Nat.not_lt.2 (Nat.le_add_left _ _))

variable (m : (ℓ : Loc nD τ sig) → Buf (Elt F) ℓ) (ρ : Dev nD → PrngReg)

/-- The proof data on core `c`: the arrays as the region finds them; after the body at point `t` each rows input's
    buffer at its block, filled out past the array's end with the zero word (the obligation states it on the rows
    inside the array only), the weights' and the bias row's at their blocks, the output's at nothing named; the
    invariant the scoped rest and the core's random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) :
    (dats m 0 c).after 1 t = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- A rows input is fetched at every point: its buffer holds the block on the rows inside the array and `d`,
    what it held, on the rest. -/
theorem before0_0 (c : Dev nD) (t : Fin cfg0.N) (d) :
    (dats m 0 c).before 0 t d = win0_0.fill (grid0.coords t) d (iblk m c 0 t) := by
  rw [Pipeline.Dat.before_fetched (dats m 0 c) 0 t (fetch0_0 t) d]
  unfold Pipeline.Dat.fetched Pipeline.Dat.blockOf iblk
  rw [A_eq]
theorem before0_1 (c : Dev nD) (t : Fin cfg0.N) (d) :
    (dats m 0 c).before 1 t d = win0_1.fill (grid0.coords t) d (iblk m c 1 t) := by
  rw [Pipeline.Dat.before_fetched (dats m 0 c) 1 t (fetch0_1 t) d]
  unfold Pipeline.Dat.fetched Pipeline.Dat.blockOf iblk
  rw [A_eq]
/-- The weights' and the bias row's buffers hold their one block at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- At every point: the inputs' buffers arrive holding their blocks (the rows inputs' filled out with what the
    buffers held), the output's holding anything; the body leaves the inputs' as they were — on the rows inside the
    array the rows blocks, all the obligation of a cut window states — and the output's at some contents. -/
theorem body_obligation (c : Dev nD) :
    BodyObligationLoose (dats (F := F) m 0 c) (defs₀ (F := F)) Variants.none () Set.univ forgets0 := fun t => by
  rw [bigSep_W0, bigSep_W0]
  simp only [forgets0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%X4, H4⟩⟩
  rw [before0_0 m c t d0, before0_1 m c t d1, before0_2 m c t d2, before0_3 m c t d3]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [Ho]; · iexact Ho
  isplitl [H0]
  · iexists d0; rw [after0_0 m c t, Window.cut_fill]; iexact H0
  isplitl [H1]
  · iexists d1; rw [after0_1 m c t, Window.cut_fill]; iexact H1
  isplitl [H2]
  · rw [after0_2 m c t]; iexact H2
  isplitl [H3]
  · rw [after0_3 m c t]; iexact H3
  iexists _; iexact H4

/-! ## The run and the frame -/

/-- The buffer the line after the region writes: the output array reshaped, computed from contents nothing names. -/
def T0 : Finset (Ref sig .tc) := {main_v2}

/-- The line after the region writes that buffer only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  cases Proc.devRef_injective _ hb
  decide

set_option backward.isDefEq.respectTransparency.types false in
/-- From any memory with zero counters every weakly fair execution of @main terminates, and in every final state
    each input array of the pipeline holds its region-entry contents, and so does every other unscoped buffer that
    is neither the output array nor the one the last line writes. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The word-level kernel runs to the end and leaves its four argument arrays as launched: the three the pipeline
    stages are inputs, never written, and hold at the end what the region found, which no line before it wrote; the
    bias vector bypasses the region (the pipeline stages its reshaped copy) and no line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets0).ArrAt_in 0 rfl _) _) ((h c).1 0)).trans ((A_eq m c 0).trans (V_main_arg0 m c)),
      (Eq.mp (congrFun (((dats m 0 c).toRForget forgets0).ArrAt_in 1 rfl _) _) ((h c).1 1)).trans ((A_eq m c 1).trans (V_main_arg1 m c)),
      (Eq.mp (congrFun (((dats m 0 c).toRForget forgets0).ArrAt_in 2 rfl _) _) ((h c).1 2)).trans ((A_eq m c 2).trans (V_main_arg2 m c)),
      ((h c).2 main_arg3 (Finset.mem_sdiff.mpr ⟨Pipeline.mem_restRefs_of main_arg3 (by decide) (by decide), by decide⟩)).trans
        (V_main_arg3 m c)⟩) (run_main m ρ)

end Cert.Kernel.ProjBody

end
-- ==== Proof.KiBody.lean ====
/-
  The body of the idealized kernel at one grid point, on whole staging buffers.

  A grid point handles one block of 6256 rows of each input. The body loads the 256 x 256 weight matrix, the bias row and
  the first input's rows block, multiplies the rows into the weights (into a zero accumulator), adds the bias row
  broadcast over the rows, and stores the result as plane 0 of the [2, 6256, 256] output block; then does the same with
  the second input's rows block into plane 1. The two planes tile the output block, so after the body the block is the
  canonical reading of those two stores over what the input blocks held (`outBlock`), whatever it held before.
-/
import proofs.«169659_g17257178595387_cont_8to1_146_7_alg».proof.Proof.Gen.KernelIdeal.Frame
import proofs.«169659_g17257178595387_cont_8to1_146_7_alg».proof.Proof.Gen.KernelIdeal.Skeleton
import Idealize.ShloMosaic.Lib.Pipeline.FrameBody
import Idealize.ShloMosaic.Lib.Tactic

set_option maxRecDepth 16384

noncomputable section

namespace Cert.KernelIdeal.ProjBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

/-- A whole 6256 x 256 block of rows. -/
abbrev rRows : Rect S6256x256 := Rect.unit (s := S6256x256) ![0, 0] S6256x256.size inb_S6256x256_S6256x256_0_0
/-- The whole weight matrix. -/
abbrev rW : Rect S256x256 := Rect.unit (s := S256x256) ![0, 0] S256x256.size inb_S256x256_S256x256_0_0
/-- The whole bias row. -/
abbrev rB : Rect S1x256 := Rect.unit (s := S1x256) ![0, 0] S1x256.size inb_S1x256_S1x256_0_0
/-- Plane 0 of the output block: the projected rows of the first input. -/
abbrev rOut0 : Rect S2x6256x256 := Rect.unit (s := S2x6256x256) ![0, 0, 0] S1x6256x256.size inb_S2x6256x256_S1x6256x256_0_0_0
/-- Plane 1 of the output block: the projected rows of the second input. -/
abbrev rOut1 : Rect S2x6256x256 := Rect.unit (s := S2x6256x256) ![1, 0, 0] S1x6256x256.size inb_S2x6256x256_S1x6256x256_1_0_0

/-- What the output block holds after the body, from what the four input blocks hold: plane 0 written with the
    projection of the first rows block, then plane 1 with that of the second (the later store listed first). -/
def outBlock (x1 x2 : Vec F S6256x256 .f32) (x3 : Vec F S256x256 .f32) (x4 : Vec F S1x256 .f32) : Vec F S2x6256x256 .f32 :=
  View.canon [⟨rOut1, k0_pay3 (View.ld x3 rW) (View.ld x4 rB) (View.ld x2 rRows)⟩,
    ⟨rOut0, k0_pay2 (View.ld x3 rW) (View.ld x4 rB) (View.ld x1 rRows)⟩]

/-- The two planes tile the output block. -/
theorem outBlock_cover (p1 p0 : Vec F S1x6256x256 .f32) (y : S2x6256x256.Idx) :
    ∃ pc ∈ ([⟨rOut1, p1⟩, ⟨rOut0, p0⟩] : List (View.Piece (Elt F) S2x6256x256 .f32)), y ∈ pc.1.set :=
  View.cover_of_tiled [⟨rOut1, p1⟩, ⟨rOut0, p0⟩] S1x6256x256.size (by rfl) y

/-! ## The body's triple -/

set_option maxHeartbeats 1000000 in
/-- The body on whole staging memrefs, the four inputs' at contents `x1 … x4` and the output's at anything, runs to
    the continuation with the inputs' as they were and the output's at `outBlock` of them. -/
theorem sound_kernel (c : Dev nD) (E : Set ℕ) (i : grid0.Coords)
    (arg1 : Memref sig .tc .vmem S6256x256 .f32) (harg1 : arg1.IsWhole) (arg2 : Memref sig .tc .vmem S6256x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2x6256x256 .f32) (harg5 : arg5.IsWhole)
    (x1 x2 : Vec F S6256x256 .f32) (x3 : Vec F S256x256 .f32) (x4 : Vec F S1x256 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (outBlock x1 x2 x3 x4)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _ _)

end Cert.KernelIdeal.ProjBody

end
-- ==== Proof.KiEntry.lean ====
/-
  The body's arithmetic at one entry, over the extended reals.

  At an entry `(r, cc)` the product of a 6256 x 256 rows block with the 256 x 256 weights, into a zero accumulator, is
  the sum over `k` of the block's entry `(r, k)` times the weights' entry `(k, cc)`: it reads the rows block on row `r`
  only. The bias row, broadcast over the rows, contributes its entry `cc`. So each plane's payload at `(r, cc)` is that
  sum plus the bias at `cc`.
-/
import proofs.«169659_g17257178595387_cont_8to1_146_7_alg».proof.Proof.KiBody
import Idealize.ShloMosaic.Lib.Pipeline.Value
import Idealize.ShloMosaic.Lib.ValueIdx
import Idealize.ShloMosaic.PureOps.Ideal.Laws

set_option maxRecDepth 16384

noncomputable section

namespace Cert.KernelIdeal.ProjBody

open Cert.KernelIdeal Cert.KernelIdeal.Gen
open Idealize.ShloMosaic Idealize.ShloMosaic.ValueIdx

/-! ## The rows-times-weights product at an entry -/

theorem lhs_row (i : S6256x256.Idx) (q : dot_S6256x256_S256x256_S6256x256_1_0_0_1_n_n.contr.Idx) :
    (dot_S6256x256_S256x256_S6256x256_1_0_0_1_n_n.lhsIdx i q 0).val = (i 0).val := by
  unfold DotDims.lhsIdx
  rw [dif_neg (show ¬(0 : Fin S6256x256.rank) ∈ dot_S6256x256_S256x256_S6256x256_1_0_0_1_n_n.lhsBatch by decide), dif_pos (show (0 : Fin S6256x256.rank) ∈ dot_S6256x256_S256x256_S6256x256_1_0_0_1_n_n.lhsNonContracting by decide)]
  rfl
theorem lhs_col (i : S6256x256.Idx) (q : dot_S6256x256_S256x256_S6256x256_1_0_0_1_n_n.contr.Idx) :
    (dot_S6256x256_S256x256_S6256x256_1_0_0_1_n_n.lhsIdx i q 1).val = (q ⟨0, by decide⟩).val :=
  dot_S6256x256_S256x256_S6256x256_1_0_0_1_n_n.lhsIdx_val_of_single rfl i q
theorem rhs_row (i : S6256x256.Idx) (q : dot_S6256x256_S256x256_S6256x256_1_0_0_1_n_n.contr.Idx) :
    (dot_S6256x256_S256x256_S6256x256_1_0_0_1_n_n.rhsIdx i q 0).val = (q ⟨0, by decide⟩).val :=
  dot_S6256x256_S256x256_S6256x256_1_0_0_1_n_n.rhsIdx_val_of_single rfl i q
theorem rhs_col (i : S6256x256.Idx) (q : dot_S6256x256_S256x256_S6256x256_1_0_0_1_n_n.contr.Idx) :
    (dot_S6256x256_S256x256_S6256x256_1_0_0_1_n_n.rhsIdx i q 1).val = (i 1).val := by
  unfold DotDims.rhsIdx
  rw [dif_neg (show ¬(1 : Fin S256x256.rank) ∈ dot_S6256x256_S256x256_S6256x256_1_0_0_1_n_n.rhsBatch by decide), dif_pos (show (1 : Fin S256x256.rank) ∈ dot_S6256x256_S256x256_S6256x256_1_0_0_1_n_n.rhsNonContracting by decide)]
  rfl

/-- Entry `(r, cc)` of a rows block times the weights, into the zero accumulator: the sum over `k` of the row's
    entry `k` times the weights' entry `(k, cc)`. It reads the rows block on row `r` only. -/
theorem rows_times_weights (x : FVec Ideal S6256x256 .f32) (w : FVec Ideal S256x256 .f32) (r : Fin 6256) (cc : Fin 256) :
    matmul dot_S6256x256_S256x256_S6256x256_1_0_0_1_n_n none x w (constant (F := Ideal) S6256x256 .f32 0x00000000#32) (ix2 r cc)
      = ∑ k : Fin 256, x (ix2 r k) * w (ix2 k cc) := by
  simp only [matmul]
  rw [Ideal.matmul_constant_zero_apply, ← Equiv.sum_comp (ValueIdx.contrEquiv1 dot_S6256x256_S256x256_S6256x256_1_0_0_1_n_n 256 rfl rfl).symm]
  refine Finset.sum_congr rfl fun k _ => ?_
  have hk := ValueIdx.contrEquiv1_symm_val dot_S6256x256_S256x256_S6256x256_1_0_0_1_n_n 256 rfl rfl k
  have el : dot_S6256x256_S256x256_S6256x256_1_0_0_1_n_n.lhsIdx (ix2 r cc) ((ValueIdx.contrEquiv1 dot_S6256x256_S256x256_S6256x256_1_0_0_1_n_n 256 rfl rfl).symm k) = ix2 r k := funext fun a => Fin.ext (by
    match a with
    | ⟨0, _⟩ => exact lhs_row _ _
    | ⟨1, _⟩ => exact (lhs_col _ _).trans hk)
  have er : dot_S6256x256_S256x256_S6256x256_1_0_0_1_n_n.rhsIdx (ix2 r cc) ((ValueIdx.contrEquiv1 dot_S6256x256_S256x256_S6256x256_1_0_0_1_n_n 256 rfl rfl).symm k) = ix2 k cc := funext fun a => Fin.ext (by
    match a with
    | ⟨0, _⟩ => exact (rhs_row _ _).trans hk
    | ⟨1, _⟩ => exact rhs_col _ _)
  rw [el, er]

/-! ## A plane of the output block at an entry -/

/-- The bias row broadcast over the rows, at `(r, cc)`: the bias at `cc`. -/
theorem bias_at (b : FVec Ideal S1x256 .f32) (r : Fin 6256) (cc : Fin 256) :
    broadcastTo S6256x256 (k0_pay1 b) broadcasts_S1x256_S6256x256 (ix2 r cc) = b (ix2 (0 : Fin 1) cc) := by
  unfold k0_pay1
  rw [shapeCast_self]
  exact broadcastTo_apply _ _ (ix2 r cc) (ix2 (0 : Fin 1) cc) (fun a => by
    match a with
    | ⟨0, _⟩ => show (0 : Nat) = if (1 : Nat) = 1 then 0 else _; rw [if_pos rfl]
    | ⟨1, _⟩ => show cc.val = if (256 : Nat) = 1 then 0 else cc.val; rw [if_neg (by decide)])

/-- Dropping the unit axis of an index of a [1, 6256, 256] plane. -/
theorem tail_ix3 (u : Fin 1) (r : Fin 6256) (cc : Fin 256) :
    (fun a : Fin 2 => (ix3 u r cc : S1x6256x256.Idx) a.succ) = (ix2 r cc : S6256x256.Idx) :=
  funext fun a => by
    match a with
    | ⟨0, _⟩ => rfl
    | ⟨1, _⟩ => rfl

/-- Plane 0's payload at `(r, cc)`: row `r` of the rows block times column `cc` of the weights, plus the bias at `cc`. -/
theorem pay2_apply (w : FVec Ideal S256x256 .f32) (b : FVec Ideal S1x256 .f32) (x : FVec Ideal S6256x256 .f32)
    (u : Fin 1) (r : Fin 6256) (cc : Fin 256) :
    k0_pay2 w b x (ix3 u r cc) = (∑ k : Fin 256, x (ix2 r k) * w (ix2 k cc)) + b (ix2 (0 : Fin 1) cc) := by
  unfold k0_pay2
  refine (shapeCast_addUnit_apply ![6256, 256] _ _ (ix3 u r cc)).trans ?_
  rw [tail_ix3, addf_apply, rows_times_weights, bias_at]

/-- Plane 1's payload likewise. -/
theorem pay3_apply (w : FVec Ideal S256x256 .f32) (b : FVec Ideal S1x256 .f32) (x : FVec Ideal S6256x256 .f32)
    (u : Fin 1) (r : Fin 6256) (cc : Fin 256) :
    k0_pay3 w b x (ix3 u r cc) = (∑ k : Fin 256, x (ix2 r k) * w (ix2 k cc)) + b (ix2 (0 : Fin 1) cc) := by
  unfold k0_pay3
  refine (shapeCast_addUnit_apply ![6256, 256] _ _ (ix3 u r cc)).trans ?_
  rw [tail_ix3, addf_apply, rows_times_weights, bias_at]

end Cert.KernelIdeal.ProjBody

end
-- ==== Proof.KiBlock.lean ====
/-
  The output block after the body, read at an entry, over the extended reals.

  The body's two stores tile the [2, 6256, 256] output block: plane 0 then plane 1. Read at an entry `(s, r, cc)` the block
  holds plane `s`'s payload at `(r, cc)`: row `r` of rows block `s` times column `cc` of the weights, plus the bias at `cc`.
-/
import proofs.«169659_g17257178595387_cont_8to1_146_7_alg».proof.Proof.KiEntry

set_option maxRecDepth 16384

noncomputable section

namespace Cert.KernelIdeal.ProjBody

open Cert.KernelIdeal Cert.KernelIdeal.Gen
open Idealize.ShloMosaic Idealize.ShloMosaic.ValueIdx

/-! ## The output block at an entry -/

theorem zero2 : (![0, 0] : Fin 2 → Nat) = fun _ => 0 := funext fun a => by fin_cases a <;> rfl

section TwoStores

variable {S : Shape} {e : EltTy} {Val : EltTy → Type} [∀ e, Nonempty (Val e)]

/-- Two stores through rectangles `r0` then `r1`, read at an index of `r0` outside `r1`: the first store's payload. -/
theorem canon_two_first (r1 r0 : Rect S) (p1 : r1.shape.Idx → Val e) (p0 : r0.shape.Idx → Val e) (y : S.Idx) (x : r0.shape.Idx)
    (hn : y ∉ r1.set) (hy : y = r0.emb x) :
    View.canon ([⟨r1, p1⟩, ⟨r0, p0⟩] : List (View.Piece Val S e)) y = p0 x := by
  subst hy
  rw [View.canon_cons_of_not_mem _ _ hn]
  exact View.canon_cons_emb r0 p0 [] x

/-- The same read at an index of `r1`: the second store's payload. -/
theorem canon_two_second (r1 r0 : Rect S) (p1 : r1.shape.Idx → Val e) (p0 : r0.shape.Idx → Val e) (y : S.Idx) (x : r1.shape.Idx)
    (hy : y = r1.emb x) :
    View.canon ([⟨r1, p1⟩, ⟨r0, p0⟩] : List (View.Piece Val S e)) y = p1 x := by
  subst hy
  exact View.canon_cons_emb r1 p1 _ x

end TwoStores

/-- Entry `(r, cc)` of plane 1 is the entry of the block's index `(1, r, cc)`. -/
theorem plane1_emb (r : Fin 6256) (cc : Fin 256) :
    (ix3 (1 : Fin 2) r cc : S2x6256x256.Idx) = rOut1.emb (ix3 (0 : Fin 1) r cc) :=
  funext fun a => Fin.ext (by
    match a with
    | ⟨0, _⟩ => rfl
    | ⟨1, _⟩ => show r.val = 0 + 1 * r.val; omega
    | ⟨2, _⟩ => show cc.val = 0 + 1 * cc.val; omega)

/-- Entry `(r, cc)` of plane 0 is the entry of the block's index `(0, r, cc)`. -/
theorem plane0_emb (r : Fin 6256) (cc : Fin 256) :
    (ix3 (0 : Fin 2) r cc : S2x6256x256.Idx) = rOut0.emb (ix3 (0 : Fin 1) r cc) :=
  funext fun a => Fin.ext (by
    match a with
    | ⟨0, _⟩ => rfl
    | ⟨1, _⟩ => show r.val = 0 + 1 * r.val; omega
    | ⟨2, _⟩ => show cc.val = 0 + 1 * cc.val; omega)

/-- An index of plane 0 is not in plane 1. -/
theorem plane0_not_mem (r : Fin 6256) (cc : Fin 256) : (ix3 (0 : Fin 2) r cc : S2x6256x256.Idx) ∉ rOut1.set := fun h => by
  have h1 : (1 : Nat) ≤ 0 := (Rect.mem_set_unit.mp h (0 : Fin 3)).1
  omega

/-- THE BLOCK'S VALUE: entry `(s, r, cc)` of the output block after the body is row `r` of rows block `s` times column
    `cc` of the weights, plus the bias at `cc`. It reads each rows block on row `r` only. -/
theorem outBlock_apply (x1 x2 : FVec Ideal S6256x256 .f32) (w : FVec Ideal S256x256 .f32) (b : FVec Ideal S1x256 .f32)
    (s : Fin 2) (r : Fin 6256) (cc : Fin 256) :
    (outBlock (F := Ideal) x1 x2 w b (ix3 s r cc) : Ideal .f32)
      = (∑ k : Fin 256, (if s.val = 0 then x1 (ix2 r k) else x2 (ix2 r k)) * w (ix2 k cc)) + b (ix2 (0 : Fin 1) cc) := by
  unfold outBlock
  simp only [View.ld_unit_zero (S := S6256x256) zero2, View.ld_unit_zero (S := S256x256) zero2, View.ld_unit_zero (S := S1x256) zero2]
  by_cases h0 : s.val = 0
  · obtain rfl : s = (0 : Fin 2) := Fin.ext h0
    refine (canon_two_first rOut1 rOut0 _ _ _ (ix3 (0 : Fin 1) r cc) (plane0_not_mem r cc) (plane0_emb r cc)).trans ?_
    rw [pay2_apply]
    simp only [Fin.val_zero, if_true]
  · obtain rfl : s = (1 : Fin 2) := Fin.ext (by have := s.isLt; show s.val = 1; omega)
    refine (canon_two_second rOut1 rOut0 _ _ _ (ix3 (0 : Fin 1) r cc) (plane1_emb r cc)).trans ?_
    rw [pay3_apply]
    simp only [Fin.val_one, one_ne_zero, if_false]

end Cert.KernelIdeal.ProjBody

end
-- ==== Proof.KiData.lean ====
/-
  The idealized kernel's pipeline: proof data, body obligation, run and frame.

  The grid has four points; point `t` handles rows `6256 t` up to `6256 (t + 1)` of each input. Since 4 x 6256 = 25024
  exceeds 25000, the last point's blocks overhang the arrays by 24 rows: a fetch fills the staging buffer's leading part
  and the rest holds words nothing names, and a write-back writes the leading part only. The body's result on a row
  depends on that row of the rows block only (the product's entry `(r, cc)` sums over row `r`), so on the rows inside
  the array the output block is a function of the inputs' rows inside the array — which is what the obligation of a cut
  window states.
-/
import proofs.«169659_g17257178595387_cont_8to1_146_7_alg».proof.Proof.KiBlock
import Idealize.ShloMosaic.Lib.Pipeline.FrameBody
import Idealize.ShloMosaic.Lib.Tactic

set_option maxRecDepth 16384

noncomputable section

namespace Cert.KernelIdeal.ProjBody

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Clipped extents over the grid -/

/-- At every grid point the rows blocks move all 256 columns, and as many rows as the output block moves. -/
theorem moved_extents : ∀ t : Fin grid0.N,
    win0_0.xsize (grid0.coords t) 1 = 256 ∧ win0_1.xsize (grid0.coords t) 1 = 256
      ∧ win0_4.xsize (grid0.coords t) 1 = win0_0.xsize (grid0.coords t) 0
      ∧ win0_4.xsize (grid0.coords t) 1 = win0_1.xsize (grid0.coords t) 0 := by
  decide +kernel

/-- A filled block does not depend, at an index the transfer moves, on what it was filled over. -/
theorem fill_indep {G : Pipeline.Grid} (w : Window sig G) {α : Type} (i : G.Coords) (d d' : w.block.Idx → α)
    (g : (w.xblock i).Idx → α) (y : w.block.Idx) (hm : w.moved i y = true) : w.fill i d g y = w.fill i d' g y := by
  unfold Window.fill; rw [dif_pos hm, dif_pos hm]

/-- Row `r` of a rows block of window 0 is moved at point `t` when `r` is among the output block's moved rows. -/
theorem moved_row0 (t : Fin grid0.N) (r : Fin 6256) (k : Fin 256) (hr : r.val < win0_4.xsize (grid0.coords t) 1) :
    win0_0.moved (grid0.coords t) (ix2 r k) = true :=
  (win0_0.moved_iff (grid0.coords t) _).mpr fun a => by
    obtain ⟨h1, -, h3, -⟩ := moved_extents t
    match a with
    | ⟨0, _⟩ => show r.val < win0_0.xsize (grid0.coords t) 0; omega
    | ⟨1, _⟩ => show k.val < win0_0.xsize (grid0.coords t) 1; have := k.isLt; omega

/-- The same for window 1. -/
theorem moved_row1 (t : Fin grid0.N) (r : Fin 6256) (k : Fin 256) (hr : r.val < win0_4.xsize (grid0.coords t) 1) :
    win0_1.moved (grid0.coords t) (ix2 r k) = true :=
  (win0_1.moved_iff (grid0.coords t) _).mpr fun a => by
    obtain ⟨-, h2, -, h4⟩ := moved_extents t
    match a with
    | ⟨0, _⟩ => show r.val < win0_1.xsize (grid0.coords t) 0; omega
    | ⟨1, _⟩ => show k.val < win0_1.xsize (grid0.coords t) 1; have := k.isLt; omega

/-- ROWS INSIDE THE ARRAY DO NOT SEE THE ROWS PAST ITS END: the part of the output block the write-back moves is the
    same whatever the two rows blocks were filled over, because entry `(s, r, cc)` reads rows block `s` on row `r` only. -/
theorem cut_outBlock (t : Fin grid0.N) (d0 d0' d1 d1' : FVec Ideal S6256x256 .f32)
    (g0 : (win0_0.xblock (grid0.coords t)).Idx → Ideal .f32) (g1 : (win0_1.xblock (grid0.coords t)).Idx → Ideal .f32)
    (w : FVec Ideal S256x256 .f32) (b : FVec Ideal S1x256 .f32) :
    win0_4.cut (grid0.coords t) (outBlock (F := Ideal) (win0_0.fill (grid0.coords t) d0 g0) (win0_1.fill (grid0.coords t) d1 g1) w b)
      = win0_4.cut (grid0.coords t) (outBlock (F := Ideal) (win0_0.fill (grid0.coords t) d0' g0) (win0_1.fill (grid0.coords t) d1' g1) w b) := by
  funext j
  have hr : (j 1).val < win0_4.xsize (grid0.coords t) 1 := (j 1).isLt
  have e : win0_4.xinj (grid0.coords t) j
      = (ix3 (⟨(j 0).val, lt_of_lt_of_le (j 0).isLt (win0_4.xsize_le (grid0.coords t) 0)⟩ : Fin 2)
          (⟨(j 1).val, lt_of_lt_of_le (j 1).isLt (win0_4.xsize_le (grid0.coords t) 1)⟩ : Fin 6256)
          (⟨(j 2).val, lt_of_lt_of_le (j 2).isLt (win0_4.xsize_le (grid0.coords t) 2)⟩ : Fin 256) : S2x6256x256.Idx) :=
    funext fun a => Fin.ext (by
      match a with
      | ⟨0, _⟩ => rfl
      | ⟨1, _⟩ => rfl
      | ⟨2, _⟩ => rfl)
  show outBlock (F := Ideal) _ _ w b (win0_4.xinj (grid0.coords t) j) = outBlock (F := Ideal) _ _ w b (win0_4.xinj (grid0.coords t) j)
  rw [e, outBlock_apply, outBlock_apply]
  congr 1
  refine Finset.sum_congr rfl fun k _ => ?_
  congr 1
  split
  · exact fill_indep win0_0 _ d0 d0' g0 _ (moved_row0 t _ k hr)
  · exact fill_indep win0_1 _ d1 d1' g1 _ (moved_row1 t _ k hr)

/-! ## The proof data of the pipeline -/

/-- What fills, in the proof's bookkeeping, the rows of a rows block past the array's end: the zero word. Nothing reads it. -/
def pad : FVec Ideal S6256x256 .f32 := fun _ => Scalar.ofBits .f32 0#32

/-- The first input's rows block at point `t`: the array's rows on the part inside the array, `pad` past its end. -/
def rows0 (c : Dev nD) (t : Fin cfg0.N) : FVec Ideal S6256x256 .f32 := win0_0.fill (grid0.coords t) pad (iblk m c 0 t)
/-- The second input's likewise. -/
def rows1 (c : Dev nD) (t : Fin cfg0.N) : FVec Ideal S6256x256 .f32 := win0_1.fill (grid0.coords t) pad (iblk m c 1 t)

/-- The proof data on core `c`: the arrays as the region finds them; after the body at point `t` each rows input's buffer
    at its block filled out with `pad`, the weights' and the bias row's at their blocks, the output's at `outBlock` of
    those; the invariant the scoped rest and the core's generator register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => rows0 m c t
    | ⟨1, _⟩ => rows1 m c t
    | ⟨2, _⟩ => iblk m c 2 t
    | ⟨3, _⟩ => iblk m c 3 t
    | ⟨4, _⟩ => outBlock (F := Ideal) (rows0 m c t) (rows1 m c t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = rows0 m c t := by dsimp only [dats]
theorem after0_1 (c : Dev nD) (t : Fin cfg0.N) : (dats m 0 c).after 1 t = rows1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (F := Ideal) (rows0 m c t) (rows1 m c t) (iblk m c 2 t) (iblk m c 3 t) := by dsimp only [dats]

/-- A rows input is fetched at every point: its buffer holds the block on the rows inside the array and `d`, what it
    held, on the rest. -/
theorem before0_0 (c : Dev nD) (t : Fin cfg0.N) (d) :
    (dats m 0 c).before 0 t d = win0_0.fill (grid0.coords t) d (iblk m c 0 t) := by
  rw [Pipeline.Dat.before_fetched (dats m 0 c) 0 t (fetch0_0 t) d]
  unfold Pipeline.Dat.fetched Pipeline.Dat.blockOf iblk
  rw [A_eq]
theorem before0_1 (c : Dev nD) (t : Fin cfg0.N) (d) :
    (dats m 0 c).before 1 t d = win0_1.fill (grid0.coords t) d (iblk m c 1 t) := by
  rw [Pipeline.Dat.before_fetched (dats m 0 c) 1 t (fetch0_1 t) d]
  unfold Pipeline.Dat.fetched Pipeline.Dat.blockOf iblk
  rw [A_eq]
/-- The weights' and the bias row's buffers hold their one block at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The output's buffer is written back at every point, so the body finds it holding anything. -/
theorem before0_4 (c : Dev nD) (t : Fin cfg0.N) (d) : (dats m 0 c).before 4 t d = d :=
  Pipeline.Dat.before_out_reset (dats m 0 c) 4 rfl t (by
    by_cases h : t.val = 0
    · exact .inl h
    · exact .inr ⟨h, flush0_4 _⟩) d

/-! ## The body obligation -/

/-- At every point: the inputs' buffers arrive holding their blocks (the rows inputs' filled out with what the buffers
    held), the output's holding anything; the body leaves the inputs' as they were and the output's at `outBlock` of
    what it read — which on the rows inside the array is `outBlock` of the blocks filled out with `pad`
    (`cut_outBlock`), all the obligation of a cut window states. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0; rw [after0_0 m c t]; unfold rows0; rw [Window.cut_fill]; iexact H0
  isplitl [H1]
  · iexists d1; rw [after0_1 m c t]; unfold rows1; rw [Window.cut_fill]; iexact H1
  isplitl [H2]
  · rw [after0_2 m c t]; iexact H2
  isplitl [H3]
  · rw [after0_3 m c t]; iexact H3
  iexists outBlock (F := Ideal) (win0_0.fill (grid0.coords t) d0 (iblk m c 0 t)) (win0_1.fill (grid0.coords t) d1 (iblk m c 1 t)) (iblk m c 2 t) (iblk m c 3 t)
  rw [after0_4 m c t]; unfold rows0 rows1
  rw [cut_outBlock t pad d0 pad d1 (iblk m c 0 t) (iblk m c 1 t) (iblk m c 2 t) (iblk m c 3 t), Window.fill_cut]
  iexact H4

/-! ## The run and the frame -/

set_option backward.isDefEq.respectTransparency.types false in
/-- From any memory with zero counters every weakly fair execution of @main terminates, and in every final state each
    array of the pipeline holds what the write-backs leave of the proof data, and every other unscoped buffer what the
    line after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel runs to the end and leaves its four argument arrays as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.ProjBody

end
-- ==== Proof.Spec.lean ====
/-
  The function both programs compute, over the extended reals.

  The two inputs, each 25000 rows of 256 entries, are stacked into 50000 rows (the first input's rows, then the
  second's); every row is multiplied into the 256 x 256 weight matrix and the bias row is added:

      out[r, c] = (sum over k of stacked[r, k] * W[k, c]) + b[c].

  `proj3` states it with the stacking kept as a leading axis of extent two (which input, which of its rows, which
  column), `proj` with the two axes merged into the row number r = 25000 * s + q. Only the sum's terms and the one
  addition are involved, so nothing here needs the inputs to be finite.
-/
import Idealize.ShloMosaic.PureOps.Ideal
import Idealize.ShloMosaic.Lib.ValueIdx

noncomputable section

namespace Cert.StackedProj

open Idealize.ShloMosaic Idealize.ShloMosaic.ValueIdx

/-- Entry `k` of row `q` of input `s` (0: the first input, 1: the second). -/
def rowOf (x0 x1 : (⟨2, ![25000, 256]⟩ : Shape).Idx → EReal) (s : Fin 2) (q : Fin 25000) (k : Fin 256) : EReal :=
  if s.val = 0 then x0 (ix2 q k) else x1 (ix2 q k)

/-- The projected rows with the stacking as a leading axis: entry `(s, q, c)` is row `q` of input `s` times column
    `c` of the weights, plus the bias at `c`. -/
def proj3 (x0 x1 : (⟨2, ![25000, 256]⟩ : Shape).Idx → EReal) (w : (⟨2, ![256, 256]⟩ : Shape).Idx → EReal)
    (b : (⟨1, ![256]⟩ : Shape).Idx → EReal) : (⟨3, ![2, 25000, 256]⟩ : Shape).Idx → EReal :=
  fun i => (∑ k : Fin 256, rowOf x0 x1 (i 0) (i 1) k * w (ix2 k (i 2))) + b (ix1 (i 2))

/-- The projected rows, 50000 of them: row `r` is row `r % 25000` of input `r / 25000`. -/
def proj (x0 x1 : (⟨2, ![25000, 256]⟩ : Shape).Idx → EReal) (w : (⟨2, ![256, 256]⟩ : Shape).Idx → EReal)
    (b : (⟨1, ![256]⟩ : Shape).Idx → EReal) : (⟨2, ![50000, 256]⟩ : Shape).Idx → EReal :=
  fun i => proj3 x0 x1 w b
    (ix3 (⟨(i 0).val / 25000, by have := (i 0).isLt; exact Nat.div_lt_of_lt_mul (by simpa using this)⟩ : Fin 2)
      (⟨(i 0).val % 25000, Nat.mod_lt _ (by decide)⟩ : Fin 25000) (i 1))

end Cert.StackedProj

end
-- ==== Proof.KiFinal.lean ====
/-
  What the idealized kernel's result holds after the run.

  Point `t` writes back, on the rows inside the array, block `t` of the stacked projection: entry `(s, r, cc)` of the output
  block is row `6256 t + r` of input `s` times column `cc` of the weights, plus the bias at `cc` (the rows blocks read
  through their fill, the weights' and the bias row's blocks through their arrays, the bias row being the bias vector
  laid out as one row before the region). The four blocks cover the [2, 25000, 256] array — row `q` lies in the block
  of point `q / 6256`, the last block ending at the array's end — so the array ends holding the stacked projection with
  the stacking as a leading axis; the line after the region merges the two leading axes, row `r` of the result being row
  `r % 25000` of plane `r / 25000`.
-/
import proofs.«169659_g17257178595387_cont_8to1_146_7_alg».proof.Proof.KiData
import proofs.«169659_g17257178595387_cont_8to1_146_7_alg».proof.Proof.Spec
import Idealize.ShloMosaic.Lib.Pipeline.Value
import Idealize.ShloMosaic.Lib.StableHlo.Run

set_option maxRecDepth 16384

noncomputable section

namespace Cert.KernelIdeal.ProjBody

open Cert.KernelIdeal Cert.KernelIdeal.Gen Cert.StackedProj
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps and the clipped extents, decided over the grid -/

/-- Point `t` takes block `t` of each input's rows and of the output's middle axis; every other block index is zero. -/
theorem idx_facts : ∀ t : Fin grid0.N,
    win0_0.index t (0 : Fin 2) = t.val ∧ win0_0.index t (1 : Fin 2) = 0
      ∧ win0_1.index t (0 : Fin 2) = t.val ∧ win0_1.index t (1 : Fin 2) = 0
      ∧ win0_2.index t (0 : Fin 2) = 0 ∧ win0_2.index t (1 : Fin 2) = 0
      ∧ win0_3.index t (0 : Fin 2) = 0 ∧ win0_3.index t (1 : Fin 2) = 0
      ∧ win0_4.index t (0 : Fin 3) = 0 ∧ win0_4.index t (1 : Fin 3) = t.val ∧ win0_4.index t (2 : Fin 3) = 0 := by
  decide +kernel

/-- The output block moves both planes and all 256 columns; on the rows it ends where the next block starts, or at the
    array's end. -/
theorem extent_facts : ∀ t : Fin grid0.N,
    win0_4.xsize (grid0.coords t) (0 : Fin 3) = 2 ∧ win0_4.xsize (grid0.coords t) (2 : Fin 3) = 256
      ∧ t.val * 6256 + win0_4.xsize (grid0.coords t) (1 : Fin 3) = min ((t.val + 1) * 6256) 25000 := by
  decide +kernel

/-! ## The blocks read through the fill -/

/-- Row `r` of the first input's rows block at point `t`, on the rows inside the array, is row `6256 t + r` of the input. -/
theorem rows0_at (c : Dev nD) (t : Fin grid0.N) (r : Fin 6256) (k : Fin 256) (hr : r.val < win0_4.xsize (grid0.coords t) 1)
    (hb : t.val * 6256 + r.val < 25000) :
    rows0 m c t (ix2 r k) = m ((c : Thread nD τ).loc main_arg0) (ix2 (⟨t.val * 6256 + r.val, hb⟩ : Fin 25000) k) := by
  unfold rows0 Window.fill
  rw [dif_pos (moved_row0 t r k hr)]
  show V m c main_arg0 (((cfg0.win 0).blk t).view.emb _) = _
  rw [V_main_arg0]
  refine congrArg _ (funext fun a => Fin.ext ?_)
  obtain ⟨h00, h01, -⟩ := idx_facts t
  match a with
  | ⟨0, _⟩ => show win0_0.index t (0 : Fin 2) * 6256 + 1 * r.val = t.val * 6256 + r.val; rw [h00]; omega
  | ⟨1, _⟩ => show win0_0.index t (1 : Fin 2) * 256 + 1 * k.val = k.val; rw [h01]; omega

/-- The second input's likewise. -/
theorem rows1_at (c : Dev nD) (t : Fin grid0.N) (r : Fin 6256) (k : Fin 256) (hr : r.val < win0_4.xsize (grid0.coords t) 1)
    (hb : t.val * 6256 + r.val < 25000) :
    rows1 m c t (ix2 r k) = m ((c : Thread nD τ).loc main_arg1) (ix2 (⟨t.val * 6256 + r.val, hb⟩ : Fin 25000) k) := by
  unfold rows1 Window.fill
  rw [dif_pos (moved_row1 t r k hr)]
  show V m c main_arg1 (((cfg0.win 1).blk t).view.emb _) = _
  rw [V_main_arg1]
  refine congrArg _ (funext fun a => Fin.ext ?_)
  obtain ⟨-, -, h10, h11, -⟩ := idx_facts t
  match a with
  | ⟨0, _⟩ => show win0_1.index t (0 : Fin 2) * 6256 + 1 * r.val = t.val * 6256 + r.val; rw [h10]; omega
  | ⟨1, _⟩ => show win0_1.index t (1 : Fin 2) * 256 + 1 * k.val = k.val; rw [h11]; omega

/-- The weights' one block is the weights. -/
theorem weights_at (c : Dev nD) (t : Fin grid0.N) (k cc : Fin 256) :
    iblk m c 2 t (ix2 k cc) = m ((c : Thread nD τ).loc main_arg2) (ix2 k cc) := by
  show V m c main_arg2 (((cfg0.win 2).blk t).view.emb _) = _
  rw [V_main_arg2]
  refine congrArg _ (funext fun a => Fin.ext ?_)
  obtain ⟨-, -, -, -, h20, h21, -⟩ := idx_facts t
  match a with
  | ⟨0, _⟩ => show win0_2.index t (0 : Fin 2) * 256 + 1 * k.val = k.val; rw [h20]; omega
  | ⟨1, _⟩ => show win0_2.index t (1 : Fin 2) * 256 + 1 * cc.val = cc.val; rw [h21]; omega

/-- The bias row as the region finds it: the bias vector laid out as one row. -/
theorem bias_row (c : Dev nD) :
    (V m c main_v0 : S1x256.Idx → Ideal .f32) = shapeCast S1x256 (m ((c : Thread nD τ).loc main_arg3)) shapeCasts_S256_S1x256 := by
  show StableHlo.after hostOps0 (fun b => m (c, b)) (Proc.devRef .tc main_v0) = _
  after_results
  rfl

/-- The bias row's one block at column `cc` is the bias at `cc`. -/
theorem bias_at_col (c : Dev nD) (t : Fin grid0.N) (cc : Fin 256) :
    iblk m c 3 t (ix2 (0 : Fin 1) cc) = m ((c : Thread nD τ).loc main_arg3) (ix1 cc) := by
  show V m c main_v0 (((cfg0.win 3).blk t).view.emb _) = _
  rw [bias_row]
  obtain ⟨-, -, -, -, -, -, h30, h31, -⟩ := idx_facts t
  refine (shapeCast_addUnit_apply ![256] _ _ _).trans (congrArg _ (funext fun a => Fin.ext ?_))
  match a with
  | ⟨0, _⟩ => show win0_3.index t (1 : Fin 2) * 256 + 1 * cc.val = cc.val; rw [h31]; omega

/-! ## What the output array ends holding -/

/-- The stacked projection of the launch contents, the stacking as a leading axis: what the [2, 25000, 256] array ends
    holding. -/
def proj3At (c : Dev nD) : S2x25000x256.Idx → Ideal .f32 :=
  proj3 (m ((c : Thread nD τ).loc main_arg0)) (m ((c : Thread nD τ).loc main_arg1)) (m ((c : Thread nD τ).loc main_arg2))
    (m ((c : Thread nD τ).loc main_arg3))

/-- WHAT POINT `t` WRITES BACK is block `t` of the stacked projection: entry `(s, r, cc)` of the part of the output block
    inside the array is row `6256 t + r` of input `s` times column `cc` of the weights, plus the bias at `cc`. -/
theorem flushed_eq (c : Dev nD) (t : Fin cfg0.N) :
    (dats m 0 c).flushed 4 t = ((cfg0.win 4).blk t).view.read (Elt Ideal) (proj3At m c) := by
  show (cfg0.win 4).cut (grid0.coords t) ((dats m 0 c).after 4 t) = _
  rw [after0_4]
  funext j
  obtain ⟨x0, x2, xe⟩ := extent_facts t
  obtain ⟨-, -, -, -, -, -, -, -, h40, h41, h42⟩ := idx_facts t
  have hj0 : (j 0).val < 2 := lt_of_lt_of_le (j 0).isLt (le_of_eq x0)
  have hj1 : (j 1).val < win0_4.xsize (grid0.coords t) 1 := (j 1).isLt
  have hj2 : (j 2).val < 256 := lt_of_lt_of_le (j 2).isLt (le_of_eq x2)
  have hr6 : (j 1).val < 6256 := lt_of_lt_of_le hj1 (win0_4.xsize_le (grid0.coords t) 1)
  have hb : t.val * 6256 + (j 1).val < 25000 := by omega
  have e : win0_4.xinj (grid0.coords t) j
      = (ix3 (⟨(j 0).val, hj0⟩ : Fin 2) (⟨(j 1).val, hr6⟩ : Fin 6256) (⟨(j 2).val, hj2⟩ : Fin 256) : S2x6256x256.Idx) :=
    funext fun a => Fin.ext (by
      match a with
      | ⟨0, _⟩ => rfl
      | ⟨1, _⟩ => rfl
      | ⟨2, _⟩ => rfl)
  have e' : ((cfg0.win 4).blk t).view.emb j
      = (ix3 (⟨(j 0).val, hj0⟩ : Fin 2) (⟨t.val * 6256 + (j 1).val, hb⟩ : Fin 25000) (⟨(j 2).val, hj2⟩ : Fin 256) : S2x25000x256.Idx) :=
    funext fun a => Fin.ext (by
      match a with
      | ⟨0, _⟩ => show win0_4.index t (0 : Fin 3) * 2 + 1 * (j 0).val = (j 0).val; rw [h40]; omega
      | ⟨1, _⟩ => show win0_4.index t (1 : Fin 3) * 6256 + 1 * (j 1).val = t.val * 6256 + (j 1).val; rw [h41]; omega
      | ⟨2, _⟩ => show win0_4.index t (2 : Fin 3) * 256 + 1 * (j 2).val = (j 2).val; rw [h42]; omega)
  show outBlock (F := Ideal) _ _ _ _ (win0_4.xinj (grid0.coords t) j) = proj3At m c (((cfg0.win 4).blk t).view.emb j)
  rw [e, e', outBlock_apply]
  unfold proj3At proj3 rowOf
  congr 1
  · refine Finset.sum_congr rfl fun k _ => ?_
    congr 1
    · show (if (j 0).val = 0 then _ else _) = (if (j 0).val = 0 then _ else _)
      split
      · exact rows0_at m c t _ k hj1 hb
      · exact rows1_at m c t _ k hj1 hb
    · exact weights_at m c t k _
  · exact bias_at_col m c t _

/-- An index of the array is in point `t`'s block iff each coordinate is in the block's range on its axis, cut at the
    array's end. -/
theorem mem_blk (t : Fin cfg0.N) (i : S2x25000x256.Idx) :
    i ∈ ((cfg0.win 4).blk t).view.set ↔ ∀ a : Fin 3, win0_4.index t a * S2x6256x256.size a ≤ (i a).val
      ∧ (i a).val < win0_4.index t a * S2x6256x256.size a + win0_4.xsize (grid0.coords t) a := by
  show i ∈ ((View.whole main_v1).slice (win0_4.rect t)).set ↔ _
  rw [View.set_slice_whole, Rect.mem_set_unit]
  exact Iff.rfl

/-- The four blocks cover the array: row `q` is in the block of point `q / 6256`. -/
theorem cover (i : S2x25000x256.Idx) :
    ∃ t : Fin cfg0.N, (cfg0.win 4).flush t = true ∧ i ∈ ((cfg0.win 4).blk t).view.set := by
  have hi0 : (i 0).val < 2 := (i 0).isLt
  have hi1 : (i 1).val < 25000 := (i 1).isLt
  have hi2 : (i 2).val < 256 := (i 2).isLt
  have hN := N_0
  refine ⟨(⟨(i 1).val / 6256, by rw [hN]; omega⟩ : Fin grid0.N), flush0_4 _, ?_⟩
  rw [mem_blk]
  obtain ⟨x0, x2, xe⟩ := extent_facts (⟨(i 1).val / 6256, by rw [hN]; omega⟩ : Fin grid0.N)
  obtain ⟨-, -, -, -, -, -, -, -, h40, h41, h42⟩ := idx_facts (⟨(i 1).val / 6256, by rw [hN]; omega⟩ : Fin grid0.N)
  intro a
  match a with
  | ⟨0, _⟩ =>
    show win0_4.index _ (0 : Fin 3) * 2 ≤ (i 0).val ∧ (i 0).val < win0_4.index _ (0 : Fin 3) * 2 + win0_4.xsize _ (0 : Fin 3)
    rw [h40, x0]; omega
  | ⟨1, _⟩ =>
    show win0_4.index _ (1 : Fin 3) * 6256 ≤ (i 1).val ∧ (i 1).val < win0_4.index _ (1 : Fin 3) * 6256 + win0_4.xsize _ (1 : Fin 3)
    rw [h41]
    have xe' : (i 1).val / 6256 * 6256 + win0_4.xsize (grid0.coords (⟨(i 1).val / 6256, by rw [hN]; omega⟩ : Fin grid0.N)) (1 : Fin 3)
        = min (((i 1).val / 6256 + 1) * 6256) 25000 := xe
    show (i 1).val / 6256 * 6256 ≤ (i 1).val ∧ (i 1).val < (i 1).val / 6256 * 6256 + _
    omega
  | ⟨2, _⟩ =>
    show win0_4.index _ (2 : Fin 3) * 256 ≤ (i 2).val ∧ (i 2).val < win0_4.index _ (2 : Fin 3) * 256 + win0_4.xsize _ (2 : Fin 3)
    rw [h42, x2]; omega

/-- THE OUTPUT ARRAY after the run holds the stacked projection of the launch contents. -/
theorem final (c : Dev nD) : (dats m 0 c).arrAt 4 cfg0.N = proj3At m c :=
  (dats m 0 c).arrAt_eq_of_cover 4 (proj3At m c) (fun t _ => flushed_eq m c t) (cover)

/-- The result buffer, the output array with its two leading axes merged, holds the stacked projection. -/
theorem result_eq (c : Dev nD) :
    Pipeline.afterTail₀ cfgs (dats m) 0 (V0 m) [hostOps1] c main_v2
      = proj (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = proj3At m c := (Pipeline.withArrays_arr spec0 launch0.win.arr_inj c _ _ 4).trans (final m c)
  rw [hw]
  funext i
  have hi : (i 0).val < 50000 := (i 0).isLt
  show shapeCast S50000x256 (proj3At m c) shapeCasts_S2x25000x256_S50000x256 i
    = proj3At m c (ix3 (⟨(i 0).val / 25000, by omega⟩ : Fin 2) (⟨(i 0).val % 25000, by omega⟩ : Fin 25000) (i 1))
  refine shapeCast_apply _ _ i _ ?_
  rw [Shape.rowMajor_val_three]
  refine Eq.trans ?_ (Shape.rowMajor_val_two (d := ![50000, 256]) i).symm
  show ((i 0).val / 25000 * 25000 + (i 0).val % 25000) * 256 + (i 1).val = (i 0).val * 256 + (i 1).val
  omega

/-- THE KERNEL'S RUN, READ: from any memory with zero counters every weakly fair execution of @main terminates with the
    result buffer at the stacked projection of the launch contents and the four argument arrays unchanged. -/
theorem run_value : θ_run defs (onTc (τ := τ) (main (F := Ideal))) ⟨m, fun _ => 0, ρ⟩ (fun r => ∀ c : Dev nD,
      r.2.mem ((c.tc : Thread nD τ).loc main_v2)
          = proj (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.ProjBody

end
-- ==== Proof.RefSide.lean ====
/-
  The reference program computes the stacked projection.

  The reference stacks its two inputs (each 25000 rows of 256 entries) into 50000 rows, multiplies every row into the
  256 x 256 weight matrix and adds the bias row. Read at an index `(r, c)` its value is
  `(sum over k of stacked[r, k] * W[k, c]) + b[c]`, and the stacked row `r` is row `r` of the first input when
  `r < 25000` and row `r - 25000` of the second otherwise: row `r % 25000` of input `r / 25000`.
-/
import proofs.«169659_g17257178595387_cont_8to1_146_7_alg».proof.Proof.Gen.ReferenceIdeal.Read
import proofs.«169659_g17257178595387_cont_8to1_146_7_alg».proof.Proof.Spec

noncomputable section

namespace Cert.ReferenceIdeal.RefSide

open Cert.ReferenceIdeal Cert.ReferenceIdeal.Read Cert.StackedProj
open Idealize.ShloMosaic Idealize.ShloMosaic.ValueIdx Idealize.SL.Sem Idealize.ShloMosaic.StableHlo

/-- The stacked rows read at an index: entry `(r, k)` is entry `k` of row `r % 25000` of input `r / 25000`. -/
theorem stacked_apply (x0 x1 : (⟨S25000x256, .f32⟩ : BufTy).Contents (Elt Ideal)) (j : S50000x256.Idx)
    (hs : (j 0).val / 25000 < 2) (hq : (j 0).val % 25000 < 25000) :
    val_main_v0 (F := Ideal) x0 x1 j = rowOf x0 x1 ⟨(j 0).val / 25000, hs⟩ ⟨(j 0).val % 25000, hq⟩ (j 1) := by
  have hj : (j 0).val < 50000 := idx2_lt0 j
  unfold val_main_v0 rowOf
  by_cases h : (j 0).val < 25000
  · -- a row of the first input
    have hd : (j 0).val / 25000 = 0 := Nat.div_eq_of_lt h
    rw [if_pos hd]
    exact concatenate_pair_apply_left 0 x0 x1 _ j rfl _ (fun b => by
      match b with
      | ⟨0, _⟩ => exact Nat.mod_eq_of_lt h
      | ⟨1, _⟩ => rfl)
  · -- a row of the second input, the first input's 25000 rows less
    have hd : ¬ (j 0).val / 25000 = 0 := by omega
    rw [if_neg hd]
    exact concatenate_pair_apply_right 0 x0 x1 _ j rfl rfl _ (fun b hb => by
      match b, hb with
      | ⟨0, _⟩, hb => exact absurd rfl hb
      | ⟨1, _⟩, _ => rfl) (by
      show (j 0).val % 25000 + 25000 = (j 0).val
      omega)

/-- The reference's value is the stacked projection. -/
theorem ref_eq_proj (x0 x1 : (⟨S25000x256, .f32⟩ : BufTy).Contents (Elt Ideal))
    (x2 : (⟨S256x256, .f32⟩ : BufTy).Contents (Elt Ideal)) (x3 : (⟨S256, .f32⟩ : BufTy).Contents (Elt Ideal)) :
    val_main_v4 (F := Ideal) x0 x1 x2 x3 = proj x0 x1 x2 x3 := by
  funext i
  rw [val_main_v4_apply, val_main_v1_apply, val_main_v3_apply, val_main_v2_apply, Ideal.addf_def]
  unfold proj proj3
  congr 1
  · refine Finset.sum_congr rfl fun k _ => ?_
    rw [stacked_apply x0 x1 (lidx_main_v1 i k)
      (by have := idx2_lt0 i; show (i 0).val / 25000 < 2; omega) (Nat.mod_lt _ (by decide))]
    congr 1
    · exact congrArg x2 (funext fun a => Fin.ext (by
        match a with
        | ⟨0, _⟩ => rfl
        | ⟨1, _⟩ => rfl))
  · exact congrArg x3 (funext fun a => Fin.ext (by
      match a with
      | ⟨0, _⟩ => rfl))

end Cert.ReferenceIdeal.RefSide

end
-- ==== Proof.lean ====
/-
  The certificate of a stacked projection: a kernel that projects two inputs block by block against the plain
  matrix product of their concatenation.

  The reference stacks its two inputs (25000 rows of 256 entries each), multiplies the 50000 rows into the 256 x 256
  weight matrix and adds the bias. The kernel never builds the stack: a grid of four points streams one block of 6256
  rows of each input, multiplies each into the weights, adds the bias, and writes the two results as the two planes of a
  [2, 25000, 256] array, which read row by row IS the [50000, 256] result. Over the extended reals both compute

      out[r, c] = (sum over k of stacked[r, k] * W[k, c]) + b[c],

  the same sum of the same terms and the same one addition, so the two results are equal entry by entry for every
  input: no law that needs finiteness is used, and the precondition is never opened.

  The last point's blocks overhang the arrays by 24 rows (4 x 6256 = 25024). What the staging buffers hold there is
  named by nothing; it does not matter, because an entry of the product reads its own row of the rows block only, and
  the write-back writes the rows inside the array only.

  The word-level kernel's frame is proved with the output window forgotten (its contents are not a function of the
  point at the word level, and the frame does not read them); the idealized kernel's frame and value come from one run;
  the reference's frame and value from its run read one operation at a time. No operation was rewritten for the
  idealization: it is the program's own text read over the extended reals, so the preservation claim has no conjunct.
-/
import proofs.«169659_g17257178595387_cont_8to1_146_7_alg».proof.Defs
import proofs.«169659_g17257178595387_cont_8to1_146_7_alg».proof.Proof.Gen.Kernel
import proofs.«169659_g17257178595387_cont_8to1_146_7_alg».proof.Proof.Gen.KernelIdeal
import proofs.«169659_g17257178595387_cont_8to1_146_7_alg».proof.Proof.Gen.ReferenceIdeal
import proofs.«169659_g17257178595387_cont_8to1_146_7_alg».proof.Proof.Gen.Pre_finite_inputs
import proofs.«169659_g17257178595387_cont_8to1_146_7_alg».proof.Proof.Gen.ReferenceIdeal.Run
import proofs.«169659_g17257178595387_cont_8to1_146_7_alg».proof.Proof.Gen.ReferenceIdeal.Read
import proofs.«169659_g17257178595387_cont_8to1_146_7_alg».proof.Proof.KernelFrame
import proofs.«169659_g17257178595387_cont_8to1_146_7_alg».proof.Proof.KiFinal
import proofs.«169659_g17257178595387_cont_8to1_146_7_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.ProjBody.frame (F := Bits) m ρ

/-- The idealized kernel runs and leaves its arguments unchanged. -/
theorem frame_ki : Cert.frame_KernelIdeal :=
  fun m ρ _ => Cert.KernelIdeal.ProjBody.frame m ρ

/-- The idealized reference runs and leaves its arguments unchanged: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Over the extended reals the kernel's result buffer and the reference's both end holding the stacked projection of
    arguments that agree. -/
theorem algebraic : Cert.algebraic_KernelIdeal_ReferenceIdeal := by
  intro m ρ m' ρ' _ hagree
  refine ⟨_, Cert.KernelIdeal.ProjBody.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefSide.ref_eq_proj,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
